-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x5 : Shape := ⟨2, ![16384, 5]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x5 : S_.BroadcastsInDim S16384x5 (![] : Fin 0 → Fin S16384x5.rank)
  reducesTo_S16384x5_S_d0_1 : S16384x5.ReducesTo [0, 1] S_

variable [Facts]

def fn {F : FTy → Type} [FloatOps F] (main_arg0 : FVec F S16384x64 .f32) (main_arg1 : FVec F S16384x5 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x5 .f32 := Host.absf main_arg1
  let main_cst_0 : FVec F S_ .f32 := constant S_ .f32 0x7F800000#32
  let main_v5 : FVec F S16384x5 .f32 := broadcastInDim S16384x5 ![] bcast_S_S16384x5 main_cst_0
  let main_v6 : IVec S16384x5 1 := cmpf .olt main_v4 main_v5
  let main_c_1 : IVec S_ 1 := constantI S_ 1 1#1
  let main_v7 : IVec S_ 1 := (fun x v => Host.reduce IntOp.andi x v reducesTo_S16384x5_S_d0_1 h_S_) main_v6 main_c_1
  let main_v8 : IVec S_ 1 := andi main_v3 main_v7
  main_v8
-- ==== Kernel.lean ====
abbrev S16384x64 : Shape := ⟨2, ![16384, 64]⟩
abbrev S16384x5 : Shape := ⟨2, ![16384, 5]⟩
abbrev S1024x5 : Shape := ⟨2, ![1024, 5]⟩
abbrev S1024x64 : Shape := ⟨2, ![1024, 64]⟩
abbrev S1024 : Shape := ⟨1, ![1024]⟩
abbrev S1024x1 : Shape := ⟨2, ![1024, 1]⟩
abbrev S5x1024 : Shape := ⟨2, ![5, 1024]⟩
abbrev S1024x1024 : Shape := ⟨2, ![1024, 1024]⟩
abbrev S1x1024 : Shape := ⟨2, ![1, 1024]⟩

abbrev nBuf : Space → Nat
  | .hbm => 3
  | .vmem => 11
  | .smem => 0
  | _ => 0

abbrev bufTy : (tb : Table) → Fin (tcTables nBuf tb) → BufTy
  | .hbm, ⟨0, _⟩ => ⟨S16384x64, .f32⟩
  | .hbm, ⟨1, _⟩ => ⟨S16384x5, .f32⟩
  | .hbm, ⟨2, _⟩ => ⟨S16384x64, .f32⟩
  | .local _ .vmem, ⟨0, _⟩ => ⟨S1024x5, .f32⟩
  | .local _ .vmem, ⟨1, _⟩ => ⟨S1024x5, .f32⟩
  | .local _ .vmem, ⟨2, _⟩ => ⟨S1024x5, .f32⟩
  | .local _ .vmem, ⟨3, _⟩ => ⟨S1024x5, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x5_S1024x5_0_0 : ∀ a, (![0, 0] : Fin 2 → Nat) a + S1024x5.size a ≤ S1024x5.size a
  h_S1024x5 : 0 < S1024x5.numel
  reduces_S1024x5_S1024 : S1024x5.Reduces [1] S1024
  shapeCasts_S1024_S1024x1 : S1024.ShapeCasts S1024x1
  transposes_S1024x5_p1_0_S5x1024 : S1024x5.Transposes [1, 0] S5x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  bitsLt_bf16_f32 : FTy.bits .bf16 < FTy.bits .f32
  dot_S1024x5_S5x1024_S1024x1024_1_0_0_1_n_n_wf : DotDims.WF S1024x5 S5x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5.size a ≤ S16384x5.size a
  hwx0_0 : ∀ i : grid0.Coords, EltTy.bits .f32 = 32 ∨ (Rect.block (s := S16384x5) S1024x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x5.size a ≤ S16384x5.size a
  hwx0_1 : ∀ i : grid0.Coords, EltTy.bits .f32 = 32 ∨ (Rect.block (s := S16384x5) S1024x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .f32 = 32 ∨ (Rect.block (s := S16384x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .f32 = 32 ∨ (Rect.block (s := S16384x64) S1024x64.size (cc0_transform_4 i) (hinb0_4 i)).WholeWords (EltTy.packing .f32)

variable [Facts₀]

def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg1) S1024x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x5 : Shape := ⟨2, ![16384, 5]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S5x16384 : Shape := ⟨2, ![5, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x5, .f32⟩
  | .hbm, ⟨2, _⟩ => ⟨S16384x5, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1x16384, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S5x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S16384x64, .f32⟩
  | .hbm, ⟨24, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S16384x5_S16384_d1 : S16384x5.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x5_S5x16384_1_0 : S16384x5.Transposes [1, 0] S5x16384
  bcast_S_S16384x16384 : S_.BroadcastsInDim S16384x16384 (![] : Fin 0 → Fin S16384x16384.rank)
  dot_S16384x5_S5x16384_S16384x16384_1_0_0_1_n_n_wf : DotDims.WF S16384x5 S5x16384 S16384x16384 [1] [0] [0] [1] [] []
  dot_S16384x16384_S16384x64_S16384x64_1_0_0_1_n_n_wf : DotDims.WF S16384x16384 S16384x64 S16384x64 [1] [0] [0] [1] [] []

variable [Facts₀]

def dot_S16384x5_S5x16384_S16384x16384_1_0_0_1_n_n : DotDims S16384x5 S5x16384 S16384x16384 where
  lhsContracting := [1]
  rhsContracting := [0]
  lhsNonContracting := [0]
  rhsNonContracting := [1]
  lhsBatch := []
  rhsBatch := []
  wf := dot_S16384x5_S5x16384_S16384x16384_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KernelBase.lean ====
/-
  The grid of the filter kernel has 16 x 16 points (i, j), visited row by row: point t is (t / 16, t % 16).
  At a point the body sees the row block i and the row block j of the feature array (two windows on ONE array),
  the row blocks i and j of the value array (two more windows on one array), the output's row block i, and an
  accumulator it keeps between points. This module fixes the vocabulary: the arrays as the region finds them,
  a window's block at a point, when the two conditionals of the body are taken (j = 0 and j = 15), at which
  points the output's buffer is left alone, and the buffers the body is called with.
-/
import proofs.«149608_j74371653697731_1_alg».proof.Proof.Gen.Kernel.Launch
import proofs.«149608_j74371653697731_1_alg».proof.Proof.Gen.Kernel.Skeleton
import proofs.«149608_j74371653697731_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The program is the region alone, so the region finds every array at its launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, whenever the body leaves the
    block in place: an unfetched point has the same block index as the point before. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditionals of the body -/

/-- The accumulator is reset where the column coordinate j is 0, -/
abbrev condFirst (i : grid0.Coords) : Prop := (Scalar.cmpi .ne (Scalar.extui (Scalar.cmpi .eq (BitVec.ofNat 32 (i 1).val) 0#32)) 0#32) = 1#1
/-- that is, at the points t with t % 16 = 0. -/
theorem hcondFirst : ∀ t : Fin cfg0.N, condFirst (grid0.coords t) ↔ t.val % 16 = 0 :=
  (by decide +kernel : ∀ t : Fin grid0.N, condFirst (grid0.coords t) ↔ t.val % 16 = 0)

/-- The output block is stored where j is 15, -/
abbrev condLast (i : grid0.Coords) : Prop := k0_cond2 i = 1#1
/-- that is, at the points t with t % 16 = 15. -/
theorem hcondLast : ∀ t : Fin cfg0.N, condLast (grid0.coords t) ↔ t.val % 16 = 15 :=
  (by decide +kernel : ∀ t : Fin grid0.N, condLast (grid0.coords t) ↔ t.val % 16 = 15)

/-! ## Where the output's buffer is left alone -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Where j < 15 nothing is stored into the output's buffer, -/
theorem idle4 : ∀ t : Fin cfg0.N, ¬condLast (grid0.coords t) → cfg0.idle 4 (grid0.coords t) = true := by decide +kernel
/-- and the buffer is not written back there; -/
theorem noFlush4 : ∀ t : Fin cfg0.N, ¬condLast (grid0.coords t) → (cfg0.win 4).flush t = false := by decide +kernel
/-- where j = 15 the block is stored. -/
theorem live4 : ∀ t : Fin cfg0.N, condLast (grid0.coords t) → cfg0.idle 4 (grid0.coords t) = false := by decide +kernel

/-! ## The buffers the body is called with -/

abbrev ms0 (t : Fin cfg0.N) : Memref sig .tc .vmem S1024x5 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
/-- The accumulator: a whole buffer of the kernel's own. -/
abbrev scM : Memref sig .tc .vmem S1024x64 .f32 := Memref.whole cc0_scratch0
/-- The accumulator as a view: what it holds is stated through it. -/
abbrev VS : View sig .tc .vmem S1024x64 .f32 := scM.view
/-- One buffer of the output window, through which its contents are stated (the choice does not matter). -/
abbrev VO : View sig .tc .vmem S1024x64 .f32 := (Memref.whole cc0_stg4_0 : Memref sig .tc .vmem S1024x64 .f32).view

/-- The kernel's own buffers besides the windows' are the accumulator alone, held at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.KernelRunFirst.lean ====
/-
  The body at a point with j = 0: the accumulator, whatever it held, is overwritten with zeros and then with
  zeros plus this point's product of the Gaussian weights with the value block j; the output's buffer is not touched.
-/
import proofs.«149608_j74371653697731_1_alg».proof.Proof.KernelBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the three blocks the case reads at their contents, the accumulator at anything — the body runs and
    hands back the blocks as they were and the accumulator with its two stores written (the pieces, last first). -/
noncomputable def runFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : condFirst i) (hc1 : ¬condLast i)
    (x0 : Vec F S1024x5 .f32) (x1 : Vec F S1024x5 .f32) (x3 : Vec F S1024x64 .f32) :
    { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Hand

end
-- ==== Proof.KernelRunMid.lean ====
/-
  The body at a point with 0 < j < 15: the accumulator, at what the point before left, gets this point's product of
  the Gaussian weights with the value block j added; the output's buffer is not touched.
-/
import proofs.«149608_j74371653697731_1_alg».proof.Proof.KernelRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the three blocks the case reads and the accumulator at their contents — the body runs and hands back
    the blocks as they were and the accumulator with its one store written. -/
noncomputable def runMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : ¬condLast i)
    (x0 : Vec F S1024x5 .f32) (x1 : Vec F S1024x5 .f32) (x3 : Vec F S1024x64 .f32) (xs : Vec F S1024x64 .f32) :
    { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Hand

end
-- ==== Proof.KernelRunLast.lean ====
/-
  The body at a point with j = 15: the accumulator gets this point's product added, and then the accumulator minus the
  value block i is stored into the output's buffer, whatever that held.
-/
import proofs.«149608_j74371653697731_1_alg».proof.Proof.KernelRunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the four blocks the case reads and the accumulator at their contents, the output's buffer at
    anything — the body runs and hands back the blocks as they were, the output's buffer with its store written and the
    accumulator with its store written. -/
noncomputable def runLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) :
    Σ' (L4 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.KernelFrame.lean ====
/-
  The region's run, put together. What the accumulator holds after each point is defined by recursion over the points:
  reset-and-add at j = 0, add elsewhere; what the output's buffer holds after a point with j = 15 is the accumulator
  minus the value block i. The two windows on the feature array each hold half of the array's share, and so do the two
  windows on the value array: both only read. With these the body's obligation holds at every point, and the region
  runs to the end with every array at what the write-backs of the output blocks make of it.
-/
import proofs.«149608_j74371653697731_1_alg».proof.Proof.KernelRunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scoverFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : condFirst i) (hc1 : ¬condLast i)
    (x0 : Vec F S1024x5 .f32) (x1 : Vec F S1024x5 .f32) (x3 : Vec F S1024x64 .f32) (y : S1024x64.Idx) :
    ∃ pc ∈ (runFirst c i arg2 harg2 arg3 harg3 arg4 harg4 arg5 harg5 arg6 harg6 arg7 harg7 hc0 hc1 x0 x1 x3).1, y ∈ pc.1.set :=
  View.cover_of_tiledL (runFirst c i arg2 harg2 arg3 harg3 arg4 harg4 arg5 harg5 arg6 harg6 arg7 harg7 hc0 hc1 x0 x1 x3).1 S1024x64.size (by sl_kernel_rfl) y

/-- What a point with j = 0 leaves in the accumulator: its stores read back. -/
def soutFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : condFirst i) (hc1 : ¬condLast i)
    (x0 : Vec F S1024x5 .f32) (x1 : Vec F S1024x5 .f32) (x3 : Vec F S1024x64 .f32) : Vec F S1024x64 .f32 :=
  VS.read (Elt F) (VS.writes (Elt F) VS.junk (runFirst c i arg2 harg2 arg3 harg3 arg4 harg4 arg5 harg5 arg6 harg6 arg7 harg7 hc0 hc1 x0 x1 x3).1)

theorem scoverMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : ¬condLast i)
    (x0 : Vec F S1024x5 .f32) (x1 : Vec F S1024x5 .f32) (x3 : Vec F S1024x64 .f32) (xs : Vec F S1024x64 .f32) (y : S1024x64.Idx) :
    ∃ pc ∈ (runMid c i arg2 harg2 arg3 harg3 arg4 harg4 arg5 harg5 arg6 harg6 arg7 harg7 hc0 hc1 x0 x1 x3 xs).1, y ∈ pc.1.set :=
  View.cover_of_tiledL (runMid c i arg2 harg2 arg3 harg3 arg4 harg4 arg5 harg5 arg6 harg6 arg7 harg7 hc0 hc1 x0 x1 x3 xs).1 S1024x64.size (by sl_kernel_rfl) y

/-- What a point with 0 < j < 15 leaves in the accumulator. -/
def soutMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : ¬condLast i)
    (x0 : Vec F S1024x5 .f32) (x1 : Vec F S1024x5 .f32) (x3 : Vec F S1024x64 .f32) (xs : Vec F S1024x64 .f32) : Vec F S1024x64 .f32 :=
  VS.read (Elt F) (VS.writes (Elt F) VS.junk (runMid c i arg2 harg2 arg3 harg3 arg4 harg4 arg5 harg5 arg6 harg6 arg7 harg7 hc0 hc1 x0 x1 x3 xs).1)

theorem scoverLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) (y : S1024x64.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S1024x64.size (by sl_kernel_rfl) y

/-- What a point with j = 15 leaves in the accumulator, -/
def soutLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) : Vec F S1024x64 .f32 :=
  VS.read (Elt F) (VS.writes (Elt F) VS.junk (runLast c i arg2 harg2 arg3 harg3 arg4 harg4 arg5 harg5 arg6 harg6 arg7 harg7 hc0 hc1 x0 x1 x2 x3 xs).2.1)

theorem coverLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) (y : S1024x64.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S1024x64.size (by sl_kernel_rfl) y

/-- and in the output's buffer. -/
def outLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) : Vec F S1024x64 .f32 :=
  VO.read (Elt F) (VO.writes (Elt F) VO.junk (runLast c i arg2 harg2 arg3 harg3 arg4 harg4 arg5 harg5 arg6 harg6 arg7 harg7 hc0 hc1 x0 x1 x2 x3 xs).1)

/-! ## The accumulator and the output's buffer, point by point -/

theorem N_256 : cfg0.N = 256 := N_0

/-- The accumulator after the point at position `n`: at j = 0 it is started afresh, elsewhere it continues from the
    point before. -/
def accAt (c : Dev nD) : (n : ℕ) → n < cfg0.N → Vec F S1024x64 .f32
  | 0, hn => soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h))
      (iblk m c 0 ⟨0, hn⟩) (iblk m c 1 ⟨0, hn⟩) (iblk m c 3 ⟨0, hn⟩)
  | n + 1, hn =>
    if h0 : (n + 1) % 16 = 0 then
      soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => (fun h => by (try dsimp only at h); omega) ((hcondLast ⟨n + 1, hn⟩).mp h))
        (iblk m c 0 ⟨n + 1, hn⟩) (iblk m c 1 ⟨n + 1, hn⟩) (iblk m c 3 ⟨n + 1, hn⟩)
    else
      if h1 : (n + 1) % 16 = 15 then
        soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1)
          (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h))
          (iblk m c 0 ⟨n + 1, hn⟩) (iblk m c 1 ⟨n + 1, hn⟩) (iblk m c 3 ⟨n + 1, hn⟩) (accAt c n (Nat.lt_of_succ_lt hn))

theorem accAt_first (c : Dev nD) (t : Fin cfg0.N) (h0 : t.val % 16 = 0) (h1 : ¬t.val % 16 = 15) :
    accAt m c t.val t.isLt = soutFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h))
      (iblk m c 0 t) (iblk m c 1 t) (iblk m c 3 t) := by
  obtain ⟨n, hn⟩ := t
  cases n with
  | zero => exact rfl
  | succ n => exact (dif_pos h0).trans rfl

theorem accAt_mid (c : Dev nD) (t : Fin cfg0.N) (h0 : ¬t.val % 16 = 0) (h1 : ¬t.val % 16 = 15) :
    accAt m c t.val t.isLt = soutMid c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h))
      (iblk m c 0 t) (iblk m c 1 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 16 = 0) (h1 : t.val % 16 = 15) :
    accAt m c t.val t.isLt = soutLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1)
      (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output's buffer after point `t`: where j = 15, what that case stores; elsewhere nothing is stored and the
    value is never consulted. -/
def outAt (c : Dev nD) (t : Fin cfg0.N) : Vec F S1024x64 .f32 :=
  if h1 : t.val % 16 = 15 then
    outLast c (grid0.coords t) (ms0 t) (hs0 t) (ms1 t) (hs1 t) (ms2 t) (hs2 t) (ms3 t) (hs3 t) (ms4 t) (hs4 t) scM (Memref.isWhole_whole _) (fun h => (fun h => by (try dsimp only at h); omega) ((hcondFirst t).mp h)) ((hcondLast t).mpr h1)
      (iblk m c 0 t) (iblk m c 1 t) (iblk m c 2 t) (iblk m c 3 t) (accAt m c (t.val - 1) (Nat.lt_of_le_of_lt (Nat.sub_le _ _) t.isLt))
  else VO.read (Elt F) VO.junk

theorem outAt_last (c : Dev nD) (t : Fin cfg0.N) (h0 : ¬t.val % 16 = 0) (h1 : t.val % 16 = 15) :
    outAt m c t = outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1)
      (iblk m c 0 t) (iblk m c 1 t) (iblk m c 2 t) (iblk m c 3 t) (accAt m c (t.val - 1) (Nat.lt_of_le_of_lt (Nat.sub_le _ _) t.isLt)) := by
  unfold outAt; exact (dif_pos h1).trans rfl

/-! ## The invariant between points -/

/-- Before the first point the accumulator holds anything; before any other point, what the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- Per core: the arrays as the region finds them; after the body each input's buffer at its block, the output's at
    `outAt`; the invariant `PhiS`; nothing owed. The feature array is read through windows 0 and 1, each holding one half
    of its share; the value array through windows 2 and 3 likewise; the output array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point, by cases on j = 0, 0 < j < 15, j = 15. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 256 := lt_of_lt_of_eq t.isLt N_256
  by_cases h0 : t.val % 16 = 0
  · have h1 : ¬t.val % 16 = 15 := by omega
    rw [Dat.leavesExact_idle (dats m 0 c) 4 t (idle4 t (fun h => h1 ((hcondLast t).mp h))) (noFlush4 t (fun h => h1 ((hcondLast t).mp h)))]
    rw [accAt_first m c t h0 h1]
    unfold soutFirst; (try dsimp only)
    have hS : (dats m 0 c).Φ t.castSucc ⊢ (iprop(∃ d, owns (c : Thread nD τ) scM fullShare d) : sProp 𝕄) := by
      rw [PhiS_castSucc m c t]
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS' := hS $$ HS
    iapply ((runFirst c (grid0.coords t) _ _ _ _ _ _ _ _ _ _ _ _ ((hcondFirst t).mpr h0) (fun h => h1 ((hcondLast t).mp h)) (iblk m c 0 t) (iblk m c 1 t) (iblk m c 3 t)).2 Set.univ _)
    isplitl [H0]; · iexact H0
    isplitl [H1]; · iexact H1
    isplitl [H3]; · iexact H3
    isplitl [HS']; · iexact HS'
    iintro ⟨H0, H1, H3, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 16 = 15
    · rw [show (dats m 0 c).leavesExact 4 t = owns (c : Thread nD τ) (ms4 t) fullShare ((dats m 0 c).after 4 t) from by
        unfold Dat.leavesExact; rw [live4 t ((hcondLast t).mpr h1)], after4]
      rw [outAt_last m c t h0 h1, accAt_last m c t h0 h1]
      unfold outLast soutLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (scoverLast c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _ _ _)
    · rw [Dat.leavesExact_idle (dats m 0 c) 4 t (idle4 t (fun h => h1 ((hcondLast t).mp h))) (noFlush4 t (fun h => h1 ((hcondLast t).mp h)))]
      rw [accAt_mid m c t h0 h1]
      unfold soutMid; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((hcondFirst t).mp h)) (fun h => h1 ((hcondLast t).mp h)) (iblk m c 0 t) (iblk m c 1 t) (iblk m c 3 t) _).2 Set.univ _)
      isplitl [H0]; · iexact H0
      isplitl [H1]; · iexact H1
      isplitl [H3]; · iexact H3
      isplitl [HS]; · iexact HS
      iintro ⟨H0, H1, H3, ⟨%es, HS⟩⟩
      isplitl [HS]
      · unfold owns; iexists _; isplitr
        swap; · iexact HS
        ipureintro; exact View.read_writes_of_cover _ _ _ _ _ (scoverMid c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

/-! ## The launch -/

/-- The three buffers behind the five windows, each held whole, give every window its array at its share: the feature
    array and the value array are each split in two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [bigSep_eq_bigSepL_of_eq [main_arg1, main_arg0, main_v0] (by decide) (by decide)]
  simp only [bigSepL_cons_cons, bigSepL_singleton]
  have e0 : ((cfg0.win 0).arr.view.loc (c : Thread nD τ) ↦[(cfg0.win 0).arr.view.set]{(dats m 0 c).share 0} (dats m 0 c).arrAt 0 0 : sProp 𝕄)
      = ((c : Thread nD τ).loc main_arg1 ↦{fullShare.left} V m c main_arg1) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = ((c : Thread nD τ).loc main_arg1 ↦{fullShare.right} V m c main_arg1) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = ((c : Thread nD τ).loc main_arg0 ↦{fullShare.left} V m c main_arg0) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = ((c : Thread nD τ).loc main_arg0 ↦{fullShare.right} V m c main_arg0) := by
    rw [(arr_whole0 3).set_eq_univ]; rfl
  have e4 : ((cfg0.win 4).arr.view.loc (c : Thread nD τ) ↦[(cfg0.win 4).arr.view.set]{(dats m 0 c).share 4} (dats m 0 c).arrAt 4 0 : sProp 𝕄)
      = ((c : Thread nD τ).loc main_v0 ↦{fullShare} V m c main_v0) := by
    rw [(arr_whole0 4).set_eq_univ]; rfl
  beta_reduce
  rw [e0, e1, e2, e3, e4]
  refine (show (iprop(((c : Thread nD τ).loc main_arg1 ↦{fullShare} V m c main_arg1) ∗ ((c : Thread nD τ).loc main_arg0 ↦{fullShare} V m c main_arg0)
      ∗ ((c : Thread nD τ).loc main_v0 ↦{fullShare} V m c main_v0)) : sProp 𝕄) ⊢ _ from ?_)
  have hs1 : ((c : Thread nD τ).loc main_arg1 ↦{fullShare} V m c main_arg1 : sProp 𝕄)
      ⊢ iprop(((c : Thread nD τ).loc main_arg1 ↦{fullShare.left} V m c main_arg1) ∗ ((c : Thread nD τ).loc main_arg1 ↦{fullShare.right} V m c main_arg1)) :=
    (pointsTo_share (PosShare.mem_left_op_right fullShare)).1
  have hs0 : ((c : Thread nD τ).loc main_arg0 ↦{fullShare} V m c main_arg0 : sProp 𝕄)
      ⊢ iprop(((c : Thread nD τ).loc main_arg0 ↦{fullShare.left} V m c main_arg0) ∗ ((c : Thread nD τ).loc main_arg0 ↦{fullShare.right} V m c main_arg0)) :=
    (pointsTo_share (PosShare.mem_left_op_right fullShare)).1
  iintro ⟨H1, H0, Hv⟩
  ihave H1' := hs1 $$ H1
  icases H1' with ⟨H1l, H1r⟩
  ihave H0' := hs0 $$ H0
  icases H0' with ⟨H0l, H0r⟩
  isplitl [H1l]; · iexact H1l
  isplitl [H1r]; · iexact H1r
  isplitl [H0l]; · iexact H0l
  isplitl [H0r]; · iexact H0r
  iexact Hv

/-- Before the first point the kernel's own buffers are the accumulator at anything. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, scopedRest_acc]
  iintro ⟨-, H⟩; iexact H

/-- After the last point the accumulator's contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest_acc]
  iintro H
  isplitr; · iempintro
  iexists _; iexact H

set_option backward.isDefEq.respectTransparency.types false in
/-- From any memory with every counter at zero, every weakly fair execution of the program terminates without a fault,
    and every window's array ends at what the write-backs make of its entry contents. -/
theorem run_main : θ_run defs (onTc (τ := τ) (main (F := F))) (s₀ m ρ)
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m)
    (hmain := Pipeline.hmain_region cfgs 0 defs₀ Variants.none m main (fun _ => rfl))
    (hsplit := hsplit m)
    (X := fun _ => BI.emp) (Y := fun _ => BI.emp) (Z := fun c => Pipeline.unscopedRest spec0 c (V m c))
    (hX := fun c => by iintro H; isplitr; · iempintro
                       iexact H)
    (hin := hin m) (hout := hout m)
    (QY := fun _ _ => True)
    (hY := fun c s' => by
      iintro ⟨-, -, HSI⟩
      imodintro
      isplitr; · ipureintro; trivial
      iexact HSI)
    (hQ := fun s h c w => (h c).1 w)

/-- The frame: the program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 2).trans (((dats m 0 c).arrAt_in 2 rfl _).trans (A_eq m c 2)),
     ((h c) 0).trans (((dats m 0 c).arrAt_in 0 rfl _).trans (A_eq m c 0))⟩) (run_main m ρ)

end Cert.Kernel.Hand

end
-- ==== Proof.KernelIdealBase.lean ====
/-
  The grid of the filter kernel has 16 x 16 points (i, j), visited row by row: point t is (t / 16, t % 16).
  At a point the body sees the row block i and the row block j of the feature array (two windows on ONE array),
  the row blocks i and j of the value array (two more windows on one array), the output's row block i, and an
  accumulator it keeps between points. This module fixes the vocabulary: the arrays as the region finds them,
  a window's block at a point, when the two conditionals of the body are taken (j = 0 and j = 15), at which
  points the output's buffer is left alone, and the buffers the body is called with.
-/
import proofs.«149608_j74371653697731_1_alg».proof.Proof.Gen.KernelIdeal.Launch
import proofs.«149608_j74371653697731_1_alg».proof.Proof.Gen.KernelIdeal.Skeleton
import proofs.«149608_j74371653697731_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The program is the region alone, so the region finds every array at its launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, whenever the body leaves the
    block in place: an unfetched point has the same block index as the point before. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditionals of the body -/

/-- The accumulator is reset where the column coordinate j is 0, -/
abbrev condFirst (i : grid0.Coords) : Prop := (Scalar.cmpi .ne (Scalar.extui (Scalar.cmpi .eq (BitVec.ofNat 32 (i 1).val) 0#32)) 0#32) = 1#1
/-- that is, at the points t with t % 16 = 0. -/
theorem hcondFirst : ∀ t : Fin cfg0.N, condFirst (grid0.coords t) ↔ t.val % 16 = 0 :=
  (by decide +kernel : ∀ t : Fin grid0.N, condFirst (grid0.coords t) ↔ t.val % 16 = 0)

/-- The output block is stored where j is 15, -/
abbrev condLast (i : grid0.Coords) : Prop := k0_cond2 i = 1#1
/-- that is, at the points t with t % 16 = 15. -/
theorem hcondLast : ∀ t : Fin cfg0.N, condLast (grid0.coords t) ↔ t.val % 16 = 15 :=
  (by decide +kernel : ∀ t : Fin grid0.N, condLast (grid0.coords t) ↔ t.val % 16 = 15)

/-! ## Where the output's buffer is left alone -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Where j < 15 nothing is stored into the output's buffer, -/
theorem idle4 : ∀ t : Fin cfg0.N, ¬condLast (grid0.coords t) → cfg0.idle 4 (grid0.coords t) = true := by decide +kernel
/-- and the buffer is not written back there; -/
theorem noFlush4 : ∀ t : Fin cfg0.N, ¬condLast (grid0.coords t) → (cfg0.win 4).flush t = false := by decide +kernel
/-- where j = 15 the block is stored. -/
theorem live4 : ∀ t : Fin cfg0.N, condLast (grid0.coords t) → cfg0.idle 4 (grid0.coords t) = false := by decide +kernel

/-! ## The buffers the body is called with -/

abbrev ms0 (t : Fin cfg0.N) : Memref sig .tc .vmem S1024x5 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
/-- The accumulator: a whole buffer of the kernel's own. -/
abbrev scM : Memref sig .tc .vmem S1024x64 .f32 := Memref.whole cc0_scratch0
/-- The accumulator as a view: what it holds is stated through it. -/
abbrev VS : View sig .tc .vmem S1024x64 .f32 := scM.view
/-- One buffer of the output window, through which its contents are stated (the choice does not matter). -/
abbrev VO : View sig .tc .vmem S1024x64 .f32 := (Memref.whole cc0_stg4_0 : Memref sig .tc .vmem S1024x64 .f32).view

/-- The kernel's own buffers besides the windows' are the accumulator alone, held at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KernelIdealRunFirst.lean ====
/-
  The body at a point with j = 0: the accumulator, whatever it held, is overwritten with zeros and then with
  zeros plus this point's product of the Gaussian weights with the value block j; the output's buffer is not touched.
-/
import proofs.«149608_j74371653697731_1_alg».proof.Proof.KernelIdealBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the three blocks the case reads at their contents, the accumulator at anything — the body runs and
    hands back the blocks as they were and the accumulator with its two stores written (the pieces, last first). -/
noncomputable def runFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : condFirst i) (hc1 : ¬condLast i)
    (x0 : Vec F S1024x5 .f32) (x1 : Vec F S1024x5 .f32) (x3 : Vec F S1024x64 .f32) :
    { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Hand

end
-- ==== Proof.KernelIdealRunMid.lean ====
/-
  The body at a point with 0 < j < 15: the accumulator, at what the point before left, gets this point's product of
  the Gaussian weights with the value block j added; the output's buffer is not touched.
-/
import proofs.«149608_j74371653697731_1_alg».proof.Proof.KernelIdealRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the three blocks the case reads and the accumulator at their contents — the body runs and hands back
    the blocks as they were and the accumulator with its one store written. -/
noncomputable def runMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : ¬condLast i)
    (x0 : Vec F S1024x5 .f32) (x1 : Vec F S1024x5 .f32) (x3 : Vec F S1024x64 .f32) (xs : Vec F S1024x64 .f32) :
    { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Hand

end
-- ==== Proof.KernelIdealRunLast.lean ====
/-
  The body at a point with j = 15: the accumulator gets this point's product added, and then the accumulator minus the
  value block i is stored into the output's buffer, whatever that held.
-/
import proofs.«149608_j74371653697731_1_alg».proof.Proof.KernelIdealRunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole buffers — the four blocks the case reads and the accumulator at their contents, the output's buffer at
    anything — the body runs and hands back the blocks as they were, the output's buffer with its store written and the
    accumulator with its store written. -/
noncomputable def runLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) :
    Σ' (L4 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KernelIdealFrame.lean ====
/-
  The region's run, put together. What the accumulator holds after each point is defined by recursion over the points:
  reset-and-add at j = 0, add elsewhere; what the output's buffer holds after a point with j = 15 is the accumulator
  minus the value block i. The two windows on the feature array each hold half of the array's share, and so do the two
  windows on the value array: both only read. With these the body's obligation holds at every point, and the region
  runs to the end with every array at what the write-backs of the output blocks make of it.
-/
import proofs.«149608_j74371653697731_1_alg».proof.Proof.KernelIdealRunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scoverFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : condFirst i) (hc1 : ¬condLast i)
    (x0 : Vec F S1024x5 .f32) (x1 : Vec F S1024x5 .f32) (x3 : Vec F S1024x64 .f32) (y : S1024x64.Idx) :
    ∃ pc ∈ (runFirst c i arg2 harg2 arg3 harg3 arg4 harg4 arg5 harg5 arg6 harg6 arg7 harg7 hc0 hc1 x0 x1 x3).1, y ∈ pc.1.set :=
  View.cover_of_tiledL (runFirst c i arg2 harg2 arg3 harg3 arg4 harg4 arg5 harg5 arg6 harg6 arg7 harg7 hc0 hc1 x0 x1 x3).1 S1024x64.size (by sl_kernel_rfl) y

/-- What a point with j = 0 leaves in the accumulator: its stores read back. -/
def soutFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : condFirst i) (hc1 : ¬condLast i)
    (x0 : Vec F S1024x5 .f32) (x1 : Vec F S1024x5 .f32) (x3 : Vec F S1024x64 .f32) : Vec F S1024x64 .f32 :=
  VS.read (Elt F) (VS.writes (Elt F) VS.junk (runFirst c i arg2 harg2 arg3 harg3 arg4 harg4 arg5 harg5 arg6 harg6 arg7 harg7 hc0 hc1 x0 x1 x3).1)

theorem scoverMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : ¬condLast i)
    (x0 : Vec F S1024x5 .f32) (x1 : Vec F S1024x5 .f32) (x3 : Vec F S1024x64 .f32) (xs : Vec F S1024x64 .f32) (y : S1024x64.Idx) :
    ∃ pc ∈ (runMid c i arg2 harg2 arg3 harg3 arg4 harg4 arg5 harg5 arg6 harg6 arg7 harg7 hc0 hc1 x0 x1 x3 xs).1, y ∈ pc.1.set :=
  View.cover_of_tiledL (runMid c i arg2 harg2 arg3 harg3 arg4 harg4 arg5 harg5 arg6 harg6 arg7 harg7 hc0 hc1 x0 x1 x3 xs).1 S1024x64.size (by sl_kernel_rfl) y

/-- What a point with 0 < j < 15 leaves in the accumulator. -/
def soutMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : ¬condLast i)
    (x0 : Vec F S1024x5 .f32) (x1 : Vec F S1024x5 .f32) (x3 : Vec F S1024x64 .f32) (xs : Vec F S1024x64 .f32) : Vec F S1024x64 .f32 :=
  VS.read (Elt F) (VS.writes (Elt F) VS.junk (runMid c i arg2 harg2 arg3 harg3 arg4 harg4 arg5 harg5 arg6 harg6 arg7 harg7 hc0 hc1 x0 x1 x3 xs).1)

theorem scoverLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) (y : S1024x64.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S1024x64.size (by sl_kernel_rfl) y

/-- What a point with j = 15 leaves in the accumulator, -/
def soutLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) : Vec F S1024x64 .f32 :=
  VS.read (Elt F) (VS.writes (Elt F) VS.junk (runLast c i arg2 harg2 arg3 harg3 arg4 harg4 arg5 harg5 arg6 harg6 arg7 harg7 hc0 hc1 x0 x1 x2 x3 xs).2.1)

theorem coverLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) (y : S1024x64.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S1024x64.size (by sl_kernel_rfl) y

/-- and in the output's buffer. -/
def outLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) : Vec F S1024x64 .f32 :=
  VO.read (Elt F) (VO.writes (Elt F) VO.junk (runLast c i arg2 harg2 arg3 harg3 arg4 harg4 arg5 harg5 arg6 harg6 arg7 harg7 hc0 hc1 x0 x1 x2 x3 xs).1)

/-! ## The accumulator and the output's buffer, point by point -/

theorem N_256 : cfg0.N = 256 := N_0

/-- The accumulator after the point at position `n`: at j = 0 it is started afresh, elsewhere it continues from the
    point before. -/
def accAt (c : Dev nD) : (n : ℕ) → n < cfg0.N → Vec F S1024x64 .f32
  | 0, hn => soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h))
      (iblk m c 0 ⟨0, hn⟩) (iblk m c 1 ⟨0, hn⟩) (iblk m c 3 ⟨0, hn⟩)
  | n + 1, hn =>
    if h0 : (n + 1) % 16 = 0 then
      soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => (fun h => by (try dsimp only at h); omega) ((hcondLast ⟨n + 1, hn⟩).mp h))
        (iblk m c 0 ⟨n + 1, hn⟩) (iblk m c 1 ⟨n + 1, hn⟩) (iblk m c 3 ⟨n + 1, hn⟩)
    else
      if h1 : (n + 1) % 16 = 15 then
        soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1)
          (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h))
          (iblk m c 0 ⟨n + 1, hn⟩) (iblk m c 1 ⟨n + 1, hn⟩) (iblk m c 3 ⟨n + 1, hn⟩) (accAt c n (Nat.lt_of_succ_lt hn))

theorem accAt_first (c : Dev nD) (t : Fin cfg0.N) (h0 : t.val % 16 = 0) (h1 : ¬t.val % 16 = 15) :
    accAt m c t.val t.isLt = soutFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h))
      (iblk m c 0 t) (iblk m c 1 t) (iblk m c 3 t) := by
  obtain ⟨n, hn⟩ := t
  cases n with
  | zero => exact rfl
  | succ n => exact (dif_pos h0).trans rfl

theorem accAt_mid (c : Dev nD) (t : Fin cfg0.N) (h0 : ¬t.val % 16 = 0) (h1 : ¬t.val % 16 = 15) :
    accAt m c t.val t.isLt = soutMid c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h))
      (iblk m c 0 t) (iblk m c 1 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 16 = 0) (h1 : t.val % 16 = 15) :
    accAt m c t.val t.isLt = soutLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1)
      (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output's buffer after point `t`: where j = 15, what that case stores; elsewhere nothing is stored and the
    value is never consulted. -/
def outAt (c : Dev nD) (t : Fin cfg0.N) : Vec F S1024x64 .f32 :=
  if h1 : t.val % 16 = 15 then
    outLast c (grid0.coords t) (ms0 t) (hs0 t) (ms1 t) (hs1 t) (ms2 t) (hs2 t) (ms3 t) (hs3 t) (ms4 t) (hs4 t) scM (Memref.isWhole_whole _) (fun h => (fun h => by (try dsimp only at h); omega) ((hcondFirst t).mp h)) ((hcondLast t).mpr h1)
      (iblk m c 0 t) (iblk m c 1 t) (iblk m c 2 t) (iblk m c 3 t) (accAt m c (t.val - 1) (Nat.lt_of_le_of_lt (Nat.sub_le _ _) t.isLt))
  else VO.read (Elt F) VO.junk

theorem outAt_last (c : Dev nD) (t : Fin cfg0.N) (h0 : ¬t.val % 16 = 0) (h1 : t.val % 16 = 15) :
    outAt m c t = outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1)
      (iblk m c 0 t) (iblk m c 1 t) (iblk m c 2 t) (iblk m c 3 t) (accAt m c (t.val - 1) (Nat.lt_of_le_of_lt (Nat.sub_le _ _) t.isLt)) := by
  unfold outAt; exact (dif_pos h1).trans rfl

/-! ## The invariant between points -/

/-- Before the first point the accumulator holds anything; before any other point, what the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- Per core: the arrays as the region finds them; after the body each input's buffer at its block, the output's at
    `outAt`; the invariant `PhiS`; nothing owed. The feature array is read through windows 0 and 1, each holding one half
    of its share; the value array through windows 2 and 3 likewise; the output array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point, by cases on j = 0, 0 < j < 15, j = 15. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 256 := lt_of_lt_of_eq t.isLt N_256
  by_cases h0 : t.val % 16 = 0
  · have h1 : ¬t.val % 16 = 15 := by omega
    rw [Dat.leavesExact_idle (dats m 0 c) 4 t (idle4 t (fun h => h1 ((hcondLast t).mp h))) (noFlush4 t (fun h => h1 ((hcondLast t).mp h)))]
    rw [accAt_first m c t h0 h1]
    unfold soutFirst; (try dsimp only)
    have hS : (dats m 0 c).Φ t.castSucc ⊢ (iprop(∃ d, owns (c : Thread nD τ) scM fullShare d) : sProp 𝕄) := by
      rw [PhiS_castSucc m c t]
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS' := hS $$ HS
    iapply ((runFirst c (grid0.coords t) _ _ _ _ _ _ _ _ _ _ _ _ ((hcondFirst t).mpr h0) (fun h => h1 ((hcondLast t).mp h)) (iblk m c 0 t) (iblk m c 1 t) (iblk m c 3 t)).2 Set.univ _)
    isplitl [H0]; · iexact H0
    isplitl [H1]; · iexact H1
    isplitl [H3]; · iexact H3
    isplitl [HS']; · iexact HS'
    iintro ⟨H0, H1, H3, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 16 = 15
    · rw [show (dats m 0 c).leavesExact 4 t = owns (c : Thread nD τ) (ms4 t) fullShare ((dats m 0 c).after 4 t) from by
        unfold Dat.leavesExact; rw [live4 t ((hcondLast t).mpr h1)], after4]
      rw [outAt_last m c t h0 h1, accAt_last m c t h0 h1]
      unfold outLast soutLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (scoverLast c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _ _ _)
    · rw [Dat.leavesExact_idle (dats m 0 c) 4 t (idle4 t (fun h => h1 ((hcondLast t).mp h))) (noFlush4 t (fun h => h1 ((hcondLast t).mp h)))]
      rw [accAt_mid m c t h0 h1]
      unfold soutMid; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((hcondFirst t).mp h)) (fun h => h1 ((hcondLast t).mp h)) (iblk m c 0 t) (iblk m c 1 t) (iblk m c 3 t) _).2 Set.univ _)
      isplitl [H0]; · iexact H0
      isplitl [H1]; · iexact H1
      isplitl [H3]; · iexact H3
      isplitl [HS]; · iexact HS
      iintro ⟨H0, H1, H3, ⟨%es, HS⟩⟩
      isplitl [HS]
      · unfold owns; iexists _; isplitr
        swap; · iexact HS
        ipureintro; exact View.read_writes_of_cover _ _ _ _ _ (scoverMid c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

/-! ## The launch -/

/-- The three buffers behind the five windows, each held whole, give every window its array at its share: the feature
    array and the value array are each split in two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [bigSep_eq_bigSepL_of_eq [main_arg1, main_arg0, main_v0] (by decide) (by decide)]
  simp only [bigSepL_cons_cons, bigSepL_singleton]
  have e0 : ((cfg0.win 0).arr.view.loc (c : Thread nD τ) ↦[(cfg0.win 0).arr.view.set]{(dats m 0 c).share 0} (dats m 0 c).arrAt 0 0 : sProp 𝕄)
      = ((c : Thread nD τ).loc main_arg1 ↦{fullShare.left} V m c main_arg1) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = ((c : Thread nD τ).loc main_arg1 ↦{fullShare.right} V m c main_arg1) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = ((c : Thread nD τ).loc main_arg0 ↦{fullShare.left} V m c main_arg0) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = ((c : Thread nD τ).loc main_arg0 ↦{fullShare.right} V m c main_arg0) := by
    rw [(arr_whole0 3).set_eq_univ]; rfl
  have e4 : ((cfg0.win 4).arr.view.loc (c : Thread nD τ) ↦[(cfg0.win 4).arr.view.set]{(dats m 0 c).share 4} (dats m 0 c).arrAt 4 0 : sProp 𝕄)
      = ((c : Thread nD τ).loc main_v0 ↦{fullShare} V m c main_v0) := by
    rw [(arr_whole0 4).set_eq_univ]; rfl
  beta_reduce
  rw [e0, e1, e2, e3, e4]
  refine (show (iprop(((c : Thread nD τ).loc main_arg1 ↦{fullShare} V m c main_arg1) ∗ ((c : Thread nD τ).loc main_arg0 ↦{fullShare} V m c main_arg0)
      ∗ ((c : Thread nD τ).loc main_v0 ↦{fullShare} V m c main_v0)) : sProp 𝕄) ⊢ _ from ?_)
  have hs1 : ((c : Thread nD τ).loc main_arg1 ↦{fullShare} V m c main_arg1 : sProp 𝕄)
      ⊢ iprop(((c : Thread nD τ).loc main_arg1 ↦{fullShare.left} V m c main_arg1) ∗ ((c : Thread nD τ).loc main_arg1 ↦{fullShare.right} V m c main_arg1)) :=
    (pointsTo_share (PosShare.mem_left_op_right fullShare)).1
  have hs0 : ((c : Thread nD τ).loc main_arg0 ↦{fullShare} V m c main_arg0 : sProp 𝕄)
      ⊢ iprop(((c : Thread nD τ).loc main_arg0 ↦{fullShare.left} V m c main_arg0) ∗ ((c : Thread nD τ).loc main_arg0 ↦{fullShare.right} V m c main_arg0)) :=
    (pointsTo_share (PosShare.mem_left_op_right fullShare)).1
  iintro ⟨H1, H0, Hv⟩
  ihave H1' := hs1 $$ H1
  icases H1' with ⟨H1l, H1r⟩
  ihave H0' := hs0 $$ H0
  icases H0' with ⟨H0l, H0r⟩
  isplitl [H1l]; · iexact H1l
  isplitl [H1r]; · iexact H1r
  isplitl [H0l]; · iexact H0l
  isplitl [H0r]; · iexact H0r
  iexact Hv

/-- Before the first point the kernel's own buffers are the accumulator at anything. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, scopedRest_acc]
  iintro ⟨-, H⟩; iexact H

/-- After the last point the accumulator's contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest_acc]
  iintro H
  isplitr; · iempintro
  iexists _; iexact H

set_option backward.isDefEq.respectTransparency.types false in
/-- From any memory with every counter at zero, every weakly fair execution of the program terminates without a fault,
    and every window's array ends at what the write-backs make of its entry contents. -/
theorem run_main : θ_run defs (onTc (τ := τ) (main (F := F))) (s₀ m ρ)
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m)
    (hmain := Pipeline.hmain_region cfgs 0 defs₀ Variants.none m main (fun _ => rfl))
    (hsplit := hsplit m)
    (X := fun _ => BI.emp) (Y := fun _ => BI.emp) (Z := fun c => Pipeline.unscopedRest spec0 c (V m c))
    (hX := fun c => by iintro H; isplitr; · iempintro
                       iexact H)
    (hin := hin m) (hout := hout m)
    (QY := fun _ _ => True)
    (hY := fun c s' => by
      iintro ⟨-, -, HSI⟩
      imodintro
      isplitr; · ipureintro; trivial
      iexact HSI)
    (hQ := fun s h c w => (h c).1 w)

/-- The frame: the program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 2).trans (((dats m 0 c).arrAt_in 2 rfl _).trans (A_eq m c 2)),
     ((h c) 0).trans (((dats m 0 c).arrAt_in 0 rfl _).trans (A_eq m c 0))⟩) (run_main m ρ)

end Cert.KernelIdeal.Hand

end
-- ==== Proof.KernelIdealPieces.lean ====
/-
  What each case leaves, as the body's arithmetic. A point with j = 0 leaves, in the accumulator, the update applied to
  the zero block; any other point leaves the update applied to what the accumulator held; a point with j = 15 leaves, in
  the output's buffer, the updated accumulator minus the value block i. Each is the payload of the case's last store into
  that buffer, every load in it read back from the whole buffer it loads.
-/
import proofs.«149608_j74371653697731_1_alg».proof.Proof.KernelIdealFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A point with 0 < j < 15: the update of what the accumulator held. -/
theorem soutMid_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : ¬condLast i)
    (x0 : Vec F S1024x5 .f32) (x1 : Vec F S1024x5 .f32) (x3 : Vec F S1024x64 .f32) (xs : Vec F S1024x64 .f32) :
    soutMid c i arg2 harg2 arg3 harg3 arg4 harg4 arg5 harg5 arg6 harg6 arg7 harg7 hc0 hc1 x0 x1 x3 xs = k0_pay3 x0 x1 xs x3 := by
  unfold soutMid
  rw [View.read_writes_eq_canon _ _ _ (scoverMid c i arg2 harg2 arg3 harg3 arg4 harg4 arg5 harg5 arg6 harg6 arg7 harg7 hc0 hc1 x0 x1 x3 xs)]
  unfold runMid
  dsimp only
  rw [View.canon_unit_zero hz]
  simp only [View.readAt_eq_ld, harg2.read_unread, harg3.read_unread, harg5.read_unread, harg7.read_unread,
    View.ld_unit_zero (S := S1024x5) hz, View.ld_unit_zero (S := S1024x64) hz]

/-- A point with j = 0: the update of the zero block, which the body stored and read back. -/
theorem soutFirst_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : condFirst i) (hc1 : ¬condLast i)
    (x0 : Vec F S1024x5 .f32) (x1 : Vec F S1024x5 .f32) (x3 : Vec F S1024x64 .f32) :
    soutFirst c i arg2 harg2 arg3 harg3 arg4 harg4 arg5 harg5 arg6 harg6 arg7 harg7 hc0 hc1 x0 x1 x3 = k0_pay3 x0 x1 (k0_pay2 (F := F)) x3 := by
  unfold soutFirst
  rw [View.read_writes_eq_canon _ _ _ (scoverFirst c i arg2 harg2 arg3 harg3 arg4 harg4 arg5 harg5 arg6 harg6 arg7 harg7 hc0 hc1 x0 x1 x3)]
  unfold runFirst
  dsimp only
  sl_unfold_words
  rw [View.canon_cons_unit_zero (S := S1024x64) hz, View.readCov_unit_zero (S := S1024x64) _ hz]
  simp only [View.readAt_eq_ld, harg2.read_unread, harg3.read_unread, harg5.read_unread,
    View.ld_unit_zero (S := S1024x5) hz, View.ld_unit_zero (S := S1024x64) hz]

/-- A point with j = 15, the accumulator: as at 0 < j < 15. -/
theorem soutLast_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) :
    soutLast c i arg2 harg2 arg3 harg3 arg4 harg4 arg5 harg5 arg6 harg6 arg7 harg7 hc0 hc1 x0 x1 x2 x3 xs = k0_pay3 x0 x1 xs x3 := by
  unfold soutLast
  rw [View.read_writes_eq_canon _ _ _ (scoverLast c i arg2 harg2 arg3 harg3 arg4 harg4 arg5 harg5 arg6 harg6 arg7 harg7 hc0 hc1 x0 x1 x2 x3 xs)]
  unfold runLast
  dsimp only
  sl_unfold_words
  rw [View.canon_unit_zero hz]
  simp only [View.readAt_eq_ld, harg2.read_unread, harg3.read_unread, harg5.read_unread, harg7.read_unread,
    View.ld_unit_zero (S := S1024x5) hz, View.ld_unit_zero (S := S1024x64) hz]

/-- A point with j = 15, the output's buffer: the updated accumulator, read back, minus the value block i. -/
theorem outLast_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬condFirst i) (hc1 : condLast i)
    (x0 : Vec F S1024x5 .f32) (x1 : Vec F S1024x5 .f32) (x2 : Vec F S1024x64 .f32) (x3 : Vec F S1024x64 .f32) (xs : Vec F S1024x64 .f32) :
    outLast c i arg2 harg2 arg3 harg3 arg4 harg4 arg5 harg5 arg6 harg6 arg7 harg7 hc0 hc1 x0 x1 x2 x3 xs = k0_pay1 (k0_pay3 x0 x1 xs x3) x2 := by
  unfold outLast
  rw [View.read_writes_eq_canon _ _ _ (coverLast c i arg2 harg2 arg3 harg3 arg4 harg4 arg5 harg5 arg6 harg6 arg7 harg7 hc0 hc1 x0 x1 x2 x3 xs)]
  unfold runLast
  dsimp only
  sl_unfold_words
  rw [View.canon_unit_zero hz, View.readCov_unit_zero (S := S1024x64) _ hz]
  simp only [View.readAt_eq_ld, harg2.read_unread, harg3.read_unread, harg4.read_unread, harg5.read_unread, harg7.read_unread,
    View.ld_unit_zero (S := S1024x5) hz, View.ld_unit_zero (S := S1024x64) hz]

end Cert.KernelIdeal.Hand

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«149608_j74371653697731_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.KernelIdealPayload.lean ====
/-
  The body's arithmetic at an index, on the extended reals. For the feature blocks x0 (rows of block i) and x1 (rows of
  block j), the body forms the squared lengths of their rows, the 1024 x 1024 table of inner products, the clamped squared
  distances and their Gaussian weights; the accumulator's new entry (p, q) is its old entry plus the sum over the rows k of
  block j of  weight(p, k) * x3(k, q),  x3 the value block j. Changes of float format are the identity here, and a matrix
  product into a zero accumulator is the plain sum of products.
-/
import proofs.«149608_j74371653697731_1_alg».proof.Proof.Gen.KernelIdeal.Skeleton
import proofs.«149608_j74371653697731_1_alg».proof.Proof.LibPlainDot
import proofs.«149608_j74371653697731_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Payload

open Idealize.ShloMosaic Idealize.ShloMosaic.ValueIdx
open Cert.KernelIdeal Cert.KernelIdeal.Gen

/-- The squared length of row p of a block of the feature array. -/
def sqB (x : Vec Ideal S1024x5 .f32) (p : Fin 1024) : EReal := ∑ d : Fin 5, x (ix2 p d) * x (ix2 p d)

/-- The inner product of row p of one block with row k of another. -/
def dotB (x0 x1 : Vec Ideal S1024x5 .f32) (p k : Fin 1024) : EReal := ∑ d : Fin 5, x0 (ix2 p d) * x1 (ix2 k d)

/-- The Gaussian weight of row p of block x0 against row k of block x1. -/
def wB (x0 x1 : Vec Ideal S1024x5 .f32) (p k : Fin 1024) : EReal :=
  Ideal.exp (Ideal.ofBits .f32 0xBF000000#32 *
    max ((sqB x0 p + sqB x1 k) - Ideal.ofBits .f32 0x40000000#32 * dotB x0 x1 p k) (Ideal.ofBits .f32 0x00000000#32))

/-- The lane sums of the squares, kept as a column and repeated along the rows: entry (p, k) is the squared length of row p. -/
theorem sqCol_apply (x : Vec Ideal S1024x5 .f32) (p k : Fin 1024) :
    broadcastTo S1024x1024 (shapeCast S1024x1 (multiReduction (F := Ideal) .add [1] S1024 (mulf x x) 0x00000000#32 reduces_S1024x5_S1024 (.inl rfl) rfl)
      shapeCasts_S1024_S1024x1) broadcasts_S1024x1_S1024x1024 (ix2 p k) = sqB x p :=
  (Cert.LibRowReduce.column_repeat_apply _ shapeCasts_S1024_S1024x1 broadcasts_S1024x1_S1024x1024 p k).trans
    (Cert.LibRowReduce.rowSum_apply (mulf x x) 0x00000000#32 reduces_S1024x5_S1024 (.inl rfl) rfl p)

/-- The same column turned into a row and repeated along the columns: entry (p, k) is the squared length of row k. -/
theorem sqRow_apply (x : Vec Ideal S1024x5 .f32) (p k : Fin 1024) :
    broadcastTo S1024x1024 (transpose S1x1024 [1, 0] (shapeCast S1024x1 (multiReduction (F := Ideal) .add [1] S1024 (mulf x x) 0x00000000#32 reduces_S1024x5_S1024 (.inl rfl) rfl)
      shapeCasts_S1024_S1024x1) transposes_S1024x1_p1_0_S1x1024) broadcasts_S1x1024_S1024x1024 (ix2 p k) = sqB x k :=
  (broadcastTo_1b_ab_apply _ broadcasts_S1x1024_S1024x1024 p k).trans
    ((transpose_ix2_apply _ transposes_S1024x1_p1_0_S1x1024 (0 : Fin 1) k).trans
      ((Cert.LibColumn.shapeCast_a_a1_apply _ shapeCasts_S1024_S1024x1 k 0).trans
        (Cert.LibRowReduce.rowSum_apply (mulf x x) 0x00000000#32 reduces_S1024x5_S1024 (.inl rfl) rfl k)))

/-- The table of inner products: block x0 times the transpose of block x1, entry (p, k). -/
theorem dotTab_apply (x0 x1 : Vec Ideal S1024x5 .f32) (p k : Fin 1024) :
    matmul (F := Ideal) (φ₁ := .f32) (φ₂ := .f32) dot_S1024x5_S5x1024_S1024x1024_1_0_0_1_n_n (some .fp32) x0 (transpose S5x1024 [1, 0] x1 transposes_S1024x5_p1_0_S5x1024)
      (constant (F := Ideal) S1024x1024 .f32 0x00000000#32) (ix2 p k) = dotB x0 x1 p k :=
  (Cert.LibPlainDot.matmul_zero_apply dot_S1024x5_S5x1024_S1024x1024_1_0_0_1_n_n_wf (some .fp32) x0
      (transpose S5x1024 [1, 0] x1 transposes_S1024x5_p1_0_S5x1024) p k).trans
    (Finset.sum_congr rfl fun d _ => congrArg (x0 (ix2 p d) * ·) (transpose_ix2_apply x1 transposes_S1024x5_p1_0_S5x1024 d k))

/-- THE ACCUMULATOR'S UPDATE AT (p, q): the old entry plus the block's weighted sum. -/
theorem pay3_apply (x0 x1 : Vec Ideal S1024x5 .f32) (xs x3 : Vec Ideal S1024x64 .f32) (p : Fin 1024) (q : Fin 64) :
    k0_pay3 (F := Ideal) x0 x1 xs x3 (ix2 p q) = xs (ix2 p q) + ∑ k : Fin 1024, wB x0 x1 p k * x3 (ix2 k q) := by
  unfold k0_pay3
  refine (congrFun (shapeCast_self _ shapeCasts_S1024x64_S1024x64) (ix2 p q)).trans ?_
  refine congrArg (xs (ix2 p q) + ·) ?_
  refine (Cert.LibPlainDot.matmul_zero_apply dot_S1024x1024_S1024x64_S1024x64_1_0_0_1_n_n_wf none _ _ p q).trans ?_
  refine Finset.sum_congr rfl fun k _ => ?_
  refine congrArg (· * x3 (ix2 k q)) ?_
  show Ideal.exp (Ideal.ofBits .f32 0xBF000000#32 * max ((_ + _) - Ideal.ofBits .f32 0x40000000#32 * _) (Ideal.ofBits .f32 0x00000000#32)) = _
  unfold wB
  rw [sqCol_apply x0 p k, sqRow_apply x1 p k, dotTab_apply x0 x1 p k]

/-- The reset value is zero everywhere. -/
theorem pay2_apply (i : S1024x64.Idx) : k0_pay2 (F := Ideal) i = 0 := by
  unfold k0_pay2
  refine (congrFun (shapeCast_self _ shapeCasts_S1024x64_S1024x64) i).trans ?_
  exact Ideal.ofBits_zero_f32

/-- The stored output entry is the accumulator's entry minus the value block's. -/
theorem pay1_apply (v37 v38 : Vec Ideal S1024x64 .f32) (i : S1024x64.Idx) : k0_pay1 (F := Ideal) v37 v38 i = v37 i - v38 i := rfl

end Cert.KernelIdeal.Payload

end
-- ==== Proof.FilterSpec.lean ====
/-
  The Gaussian filter, stated once. For a feature array R (16384 rows of 5 numbers) and a value array U (16384 rows of
  64 numbers), the weight of the pair of rows (r, s) is
      w(r, s) = exp(-1/2 * max((|R r|^2 + |R s|^2) - 2 * <R r, R s>, 0)),
  and the result at (r, q) is  (sum over all rows s of  w(r, s) * U(s, q))  -  U(r, q).
  All of it on the extended reals; the three float literals stay the words they are printed as.

  The one law the comparison needs: the sum over all 16384 rows is the sum, over the 16 column blocks in turn, of the
  sums over each block's 1024 rows, started from zero. Sums of extended reals may be regrouped and reordered freely
  (they form a commutative monoid), so nothing about finiteness is used.
-/
import Idealize.ShloMosaic.PureOps.Ideal
import Idealize.ShloMosaic.PureOps.Ideal.Laws
import Idealize.ShloMosaic.Lib.ValueIdx

noncomputable section

open scoped BigOperators

namespace Cert.FilterSpec

open Idealize.ShloMosaic Idealize.ShloMosaic.ValueIdx

abbrev SU : Shape := ⟨2, ![16384, 64]⟩
abbrev SR : Shape := ⟨2, ![16384, 5]⟩

/-- The squared length of row r. -/
def sq (R : SR.Idx → EReal) (r : Fin 16384) : EReal := ∑ k : Fin 5, R (ix2 r k) * R (ix2 r k)

/-- The inner product of rows r and s. -/
def dot5 (R : SR.Idx → EReal) (r s : Fin 16384) : EReal := ∑ k : Fin 5, R (ix2 r k) * R (ix2 s k)

/-- The Gaussian weight of the pair (r, s). -/
def wgt (R : SR.Idx → EReal) (r s : Fin 16384) : EReal :=
  Ideal.exp (Ideal.ofBits .f32 0xBF000000#32 *
    max ((sq R r + sq R s) - Ideal.ofBits .f32 0x40000000#32 * dot5 R r s) (Ideal.ofBits .f32 0x00000000#32))

/-- The filtered value at (r, q), before the subtraction. -/
def total (U : SU.Idx → EReal) (R : SR.Idx → EReal) (r : Fin 16384) (q : Fin 64) : EReal :=
  ∑ s : Fin 16384, wgt R r s * U (ix2 s q)

/-- THE RESULT, one whole-array function of the two arguments. -/
def G (U : SU.Idx → EReal) (R : SR.Idx → EReal) : SU.Idx → EReal :=
  fun i => total U R (i 0) (i 1) - U i

theorem G_apply (U : SU.Idx → EReal) (R : SR.Idx → EReal) (r : Fin 16384) (q : Fin 64) :
    G U R (ix2 r q) = total U R r q - U (ix2 r q) := rfl

/-! ## The sum over all rows, block by block -/

/-- Row k of block j. -/
def rowOf (j : Fin 16) (k : Fin 1024) : Fin 16384 := ⟨j.val * 1024 + k.val, by have := j.isLt; have := k.isLt; omega⟩

/-- The rows are the pairs (block, row in the block). -/
def rowEquiv : Fin 16 × Fin 1024 ≃ Fin 16384 where
  toFun x := rowOf x.1 x.2
  invFun s := (⟨s.val / 1024, by have := s.isLt; omega⟩, ⟨s.val % 1024, Nat.mod_lt _ (by decide)⟩)
  left_inv x := by
    obtain ⟨j, k⟩ := x
    have hk := k.isLt
    refine Prod.ext (Fin.ext ?_) (Fin.ext ?_)
    · show (j.val * 1024 + k.val) / 1024 = j.val
      omega
    · show (j.val * 1024 + k.val) % 1024 = k.val
      omega
  right_inv s := by
    refine Fin.ext ?_
    show s.val / 1024 * 1024 + s.val % 1024 = s.val
    omega

/-- The sum over one block's rows. -/
def blockSum (f : Fin 16384 → EReal) (j : Fin 16) : EReal := ∑ k : Fin 1024, f (rowOf j k)

/-- The running total after the blocks 0 .. n: started at zero before block 0, each block's sum added in turn. -/
def runTotal (f : Fin 16384 → EReal) : ℕ → EReal
  | 0 => 0 + (if h : 0 < 16 then blockSum f ⟨0, h⟩ else 0)
  | n + 1 => runTotal f n + (if h : n + 1 < 16 then blockSum f ⟨n + 1, h⟩ else 0)

theorem runTotal_zero (f : Fin 16384 → EReal) : runTotal f 0 = 0 + blockSum f ⟨0, by decide⟩ := by
  rw [runTotal, dif_pos (by decide)]

theorem runTotal_succ (f : Fin 16384 → EReal) (n : ℕ) (h : n + 1 < 16) : runTotal f (n + 1) = runTotal f n + blockSum f ⟨n + 1, h⟩ := by
  rw [runTotal, dif_pos h]

theorem runTotal_eq (f : Fin 16384 → EReal) (n : ℕ) (hn : n < 16) :
    runTotal f n = ∑ j ∈ Finset.range (n + 1), (if h : j < 16 then blockSum f ⟨j, h⟩ else 0) := by
  induction n with
  | zero => simp [runTotal]
  | succ n ih =>
    rw [runTotal, ih (by omega), Finset.sum_range_succ _ (n + 1)]

/-- After the last block the running total is the sum over all rows. -/
theorem runTotal_last (f : Fin 16384 → EReal) : runTotal f 15 = ∑ s : Fin 16384, f s := by
  rw [runTotal_eq f 15 (by decide), ← Equiv.sum_comp rowEquiv f, Fintype.sum_prod_type, Finset.sum_range]
  refine Finset.sum_congr rfl fun j _ => ?_
  rw [dif_pos j.isLt]
  rfl

end Cert.FilterSpec

end
-- ==== Proof.KernelIdealValue.lean ====
/-
  The kernel's value. Point t = (i, j) of the grid reads row block i of the feature array through window 0 and row block
  j through window 1, and the same blocks of the value array through windows 2 and 3; so the body's block-local weight of
  the rows (p, k) is the filter's weight of the rows (1024 i + p, 1024 j + k). By induction on the point, after point
  (i, j) the accumulator's entry (p, q) is the running total, over the column blocks 0 .. j, of the filter's sum for the
  row 1024 i + p; at j = 15 that is the whole sum, and the block written back is the filter's block i. The sixteen
  write-backs tile the result array.
-/
import proofs.«149608_j74371653697731_1_alg».proof.Proof.KernelIdealPieces
import proofs.«149608_j74371653697731_1_alg».proof.Proof.KernelIdealPayload
import proofs.«149608_j74371653697731_1_alg».proof.Proof.FilterSpec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payload Cert.FilterSpec

variable (m : (ℓ : Loc nD τ sig) → Buf (Elt Ideal) ℓ) (ρ : Dev nD → PrngReg)

/-! ## Which blocks a point reads -/

theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)
theorem index3 : ∀ t : Fin cfg0.N, win0_3.index t 0 = t.val % 16 ∧ win0_3.index t 1 = 0 :=
  (by decide +kernel : ∀ t : Fin grid0.N, win0_3.index t 0 = t.val % 16 ∧ win0_3.index t 1 = 0)
theorem index4 : ∀ t : Fin cfg0.N, win0_4.index t 0 = t.val / 16 ∧ win0_4.index t 1 = 0 :=
  (by decide +kernel : ∀ t : Fin grid0.N, win0_4.index t 0 = t.val / 16 ∧ win0_4.index t 1 = 0)

/-- The row block i of point t, -/
def bi (t : Fin cfg0.N) : Fin 16 := ⟨t.val / 16, by have := t.isLt; have : cfg0.N = 256 := N_0; omega⟩
/-- and its column block j. -/
def bj (t : Fin cfg0.N) : Fin 16 := ⟨t.val % 16, Nat.mod_lt _ (by decide)⟩

/-- The value array and the feature array as the region finds them. -/
abbrev UA (c : Dev nD) : SU.Idx → EReal := V m c main_arg0
abbrev RA (c : Dev nD) : SR.Idx → EReal := V m c main_arg1

theorem iblk0_apply (c : Dev nD) (t : Fin cfg0.N) (p : Fin 1024) (d : Fin 5) :
    iblk m c 0 t (ix2 p d) = RA m c (ix2 (rowOf (bi t) p) d) := by
  unfold iblk
  show V m c main_arg1 (((cfg0.win 0).blk t).view.emb (ix2 p d)) = V m c main_arg1 (ix2 (rowOf (bi t) p) d)
  refine congrArg (V m c main_arg1) (funext fun a => Fin.ext ?_)
  match a with
  | ⟨0, _⟩ =>
    show win0_0.index t 0 * 1024 + 1 * p.val = t.val / 16 * 1024 + p.val
    rw [(index0 t).1]; omega
  | ⟨1, _⟩ =>
    show win0_0.index t 1 * 5 + 1 * d.val = d.val
    rw [(index0 t).2]; omega

theorem iblk1_apply (c : Dev nD) (t : Fin cfg0.N) (p : Fin 1024) (d : Fin 5) :
    iblk m c 1 t (ix2 p d) = RA m c (ix2 (rowOf (bj t) p) d) := by
  unfold iblk
  show V m c main_arg1 (((cfg0.win 1).blk t).view.emb (ix2 p d)) = V m c main_arg1 (ix2 (rowOf (bj t) p) d)
  refine congrArg (V m c main_arg1) (funext fun a => Fin.ext ?_)
  match a with
  | ⟨0, _⟩ =>
    show win0_1.index t 0 * 1024 + 1 * p.val = t.val % 16 * 1024 + p.val
    rw [(index1 t).1]; omega
  | ⟨1, _⟩ =>
    show win0_1.index t 1 * 5 + 1 * d.val = d.val
    rw [(index1 t).2]; omega

theorem iblk2_apply (c : Dev nD) (t : Fin cfg0.N) (p : Fin 1024) (q : Fin 64) :
    iblk m c 2 t (ix2 p q) = UA m c (ix2 (rowOf (bi t) p) q) := by
  unfold iblk
  show V m c main_arg0 (((cfg0.win 2).blk t).view.emb (ix2 p q)) = V m c main_arg0 (ix2 (rowOf (bi t) p) q)
  refine congrArg (V m c main_arg0) (funext fun a => Fin.ext ?_)
  match a with
  | ⟨0, _⟩ =>
    show win0_2.index t 0 * 1024 + 1 * p.val = t.val / 16 * 1024 + p.val
    rw [(index2 t).1]; omega
  | ⟨1, _⟩ =>
    show win0_2.index t 1 * 64 + 1 * q.val = q.val
    rw [(index2 t).2]; omega

theorem iblk3_apply (c : Dev nD) (t : Fin cfg0.N) (p : Fin 1024) (q : Fin 64) :
    iblk m c 3 t (ix2 p q) = UA m c (ix2 (rowOf (bj t) p) q) := by
  unfold iblk
  show V m c main_arg0 (((cfg0.win 3).blk t).view.emb (ix2 p q)) = V m c main_arg0 (ix2 (rowOf (bj t) p) q)
  refine congrArg (V m c main_arg0) (funext fun a => Fin.ext ?_)
  match a with
  | ⟨0, _⟩ =>
    show win0_3.index t 0 * 1024 + 1 * p.val = t.val % 16 * 1024 + p.val
    rw [(index3 t).1]; omega
  | ⟨1, _⟩ =>
    show win0_3.index t 1 * 64 + 1 * q.val = q.val
    rw [(index3 t).2]; omega

/-! ## The body's weights are the filter's -/

theorem wB_eq (c : Dev nD) (t : Fin cfg0.N) (p k : Fin 1024) :
    wB (iblk m c 0 t) (iblk m c 1 t) p k = wgt (RA m c) (rowOf (bi t) p) (rowOf (bj t) k) := by
  unfold wB wgt sqB Cert.FilterSpec.sq dotB dot5
  simp only [iblk0_apply, iblk1_apply]

/-- The filter's summand for the result entry (r, q), as a function of the row s summed over. -/
def term (c : Dev nD) (r : Fin 16384) (q : Fin 64) : Fin 16384 → EReal := fun s => wgt (RA m c) r s * UA m c (ix2 s q)

/-- One point's update: the old entry plus the filter's summands over the rows of column block j. -/
theorem step_apply (c : Dev nD) (t : Fin cfg0.N) (xs : Vec Ideal S1024x64 .f32) (p : Fin 1024) (q : Fin 64) :
    k0_pay3 (F := Ideal) (iblk m c 0 t) (iblk m c 1 t) xs (iblk m c 3 t) (ix2 p q)
      = xs (ix2 p q) + blockSum (term m c (rowOf (bi t) p) q) (bj t) := by
  rw [pay3_apply]
  refine congrArg (xs (ix2 p q) + ·) (Finset.sum_congr rfl fun k _ => ?_)
  rw [wB_eq, iblk3_apply]
  rfl

/-! ## The accumulator, by induction on the point -/

theorem acc_eq (c : Dev nD) : ∀ (n : ℕ) (hn : n < cfg0.N) (p : Fin 1024) (q : Fin 64),
    accAt m c n hn (ix2 p q) = runTotal (term m c (rowOf (bi ⟨n, hn⟩) p) q) (n % 16)
  | 0, hn, p, q => by
    rw [accAt_first m c ⟨0, hn⟩ rfl (by show ¬(0 : ℕ) % 16 = 15; decide), soutFirst_eq, step_apply, pay2_apply]
    exact (runTotal_zero _).symm
  | n + 1, hn, p, q => by
    have hN : cfg0.N = 256 := N_0
    by_cases h0 : (n + 1) % 16 = 0
    · have h1 : ¬(n + 1) % 16 = 15 := by omega
      rw [accAt_first m c ⟨n + 1, hn⟩ h0 h1, soutFirst_eq, step_apply, pay2_apply, h0, runTotal_zero]
      exact congrArg (fun j => (0 : EReal) + blockSum (term m c (rowOf (bi ⟨n + 1, hn⟩) p) q) j) (Fin.ext h0)
    · have hprev := acc_eq c n (Nat.lt_of_succ_lt hn) p q
      have hbi : bi ⟨n + 1, hn⟩ = bi ⟨n, Nat.lt_of_succ_lt hn⟩ := Fin.ext (by show (n + 1) / 16 = n / 16; omega)
      have hj : (n + 1) % 16 = n % 16 + 1 := by omega
      have hlt : n % 16 + 1 < 16 := by omega
      have hbj : bj ⟨n + 1, hn⟩ = ⟨n % 16 + 1, hlt⟩ := Fin.ext hj
      have hstep : k0_pay3 (F := Ideal) (iblk m c 0 ⟨n + 1, hn⟩) (iblk m c 1 ⟨n + 1, hn⟩) (accAt m c n (Nat.lt_of_succ_lt hn)) (iblk m c 3 ⟨n + 1, hn⟩) (ix2 p q)
          = runTotal (term m c (rowOf (bi ⟨n + 1, hn⟩) p) q) ((n + 1) % 16) := by
        rw [step_apply, hprev, hbi, hbj, hj, runTotal_succ _ _ hlt]
      by_cases h1 : (n + 1) % 16 = 15
      · rw [accAt_last m c ⟨n + 1, hn⟩ h0 h1, soutLast_eq]
        exact hstep
      · rw [accAt_mid m c ⟨n + 1, hn⟩ h0 h1, soutMid_eq]
        exact hstep

/-! ## The block written back at j = 15 -/

theorem out_eq (c : Dev nD) (t : Fin cfg0.N) (h1 : t.val % 16 = 15) (p : Fin 1024) (q : Fin 64) :
    outAt m c t (ix2 p q) = G (UA m c) (RA m c) (ix2 (rowOf (bi t) p) q) := by
  have h0 : ¬t.val % 16 = 0 := by omega
  have hacc : k0_pay3 (F := Ideal) (iblk m c 0 t) (iblk m c 1 t) (accAt m c (t.val - 1) (Nat.lt_of_le_of_lt (Nat.sub_le _ _) t.isLt)) (iblk m c 3 t)
      = accAt m c t.val t.isLt := ((accAt_last m c t h0 h1).trans (soutLast_eq ..)).symm
  rw [outAt_last m c t h0 h1, outLast_eq, pay1_apply, hacc, acc_eq, iblk2_apply, G_apply, h1, runTotal_last]
  rfl

theorem flushed_eq (c : Dev nD) (t : Fin cfg0.N) (hf : (cfg0.win 4).flush t = true) :
    (dats m 0 c).flushed 4 t = ((cfg0.win 4).blk t).view.read (Elt Ideal) (G (UA m c) (RA m c)) := by
  have h1 : t.val % 16 = 15 := (flush0_4 t).mp hf
  show (cfg0.win 4).cut (grid0.coords t) ((dats m 0 c).after 4 t) = _
  rw [after4]
  funext y
  obtain ⟨p, q, rfl⟩ : ∃ (p : Fin 1024) (q : Fin 64), y = ix2 p q := ⟨y 0, y 1, eq_ix2 y⟩
  show outAt m c t (ix2 p q) = G (UA m c) (RA m c) (((cfg0.win 4).blk t).view.emb (ix2 p q))
  rw [out_eq m c t h1 p q]
  refine congrArg (G (UA m c) (RA m c)) (funext fun a => Fin.ext ?_)
  match a with
  | ⟨0, _⟩ =>
    show t.val / 16 * 1024 + p.val = win0_4.index t 0 * 1024 + 1 * p.val
    rw [(index4 t).1]; omega
  | ⟨1, _⟩ =>
    show q.val = win0_4.index t 1 * 64 + 1 * q.val
    rw [(index4 t).2]; omega

theorem xsize4 : ∀ t : Fin cfg0.N, win0_4.xsize (grid0.coords t) 0 = 1024 ∧ win0_4.xsize (grid0.coords t) 1 = 64 :=
  (by decide +kernel : ∀ t : Fin grid0.N, win0_4.xsize (grid0.coords t) 0 = 1024 ∧ win0_4.xsize (grid0.coords t) 1 = 64)

/-- The result array ends holding the filter's result: the write-back at point (i, 15) covers the rows of block i. -/
theorem final_out (c : Dev nD) : (dats m 0 c).arrAt 4 cfg0.N = G (UA m c) (RA m c) :=
  (dats m 0 c).arrAt_eq_of_cover 4 (G (UA m c) (RA m c)) (flushed_eq m c) fun i => by
    have hN : cfg0.N = 256 := N_0
    have h0 : (i 0 : Nat) < 16384 := (i 0).isLt
    have h1 : (i 1 : Nat) < 64 := (i 1).isLt
    let t : Fin cfg0.N := ⟨(i 0 : Nat) / 1024 * 16 + 15, by omega⟩
    have ht : t.val = (i 0 : Nat) / 1024 * 16 + 15 := rfl
    refine ⟨t, (flush0_4 t).mpr (by rw [ht]; omega), ?_⟩
    show i ∈ ((View.whole main_v0).slice (win0_4.rect t)).set
    rw [View.set_slice_whole, Rect.mem_set_unit]
    intro a
    match a with
    | ⟨0, _⟩ =>
      show win0_4.index t 0 * win0_4.size 0 ≤ (i 0 : Nat) ∧ (i 0 : Nat) < win0_4.index t 0 * win0_4.size 0 + win0_4.xsize (grid0.coords t) 0
      rw [(index4 t).1, (xsize4 t).1, ht, show win0_4.size 0 = 1024 from rfl]; omega
    | ⟨1, _⟩ =>
      show win0_4.index t 1 * win0_4.size 1 ≤ (i 1 : Nat) ∧ (i 1 : Nat) < win0_4.index t 1 * win0_4.size 1 + win0_4.xsize (grid0.coords t) 1
      rw [(index4 t).2, (xsize4 t).2]; omega

/-- THE RUN, READ: the result array at the filter's result of the two argument arrays, the arguments unchanged. -/
theorem run_value : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c) 4).trans (final_out m c),
     ((h c) 2).trans (((dats m 0 c).arrAt_in 2 rfl _).trans (A_eq m c 2)),
     ((h c) 0).trans (((dats m 0 c).arrAt_in 0 rfl _).trans (A_eq m c 0))⟩) (run_main m ρ)

end Cert.KernelIdeal.Hand

end
-- ==== Proof.RefSide.lean ====
/-
  The reference side. The reference computes, over whole arrays, the squared length of every row of the feature array,
  the table of all pairwise squared distances clamped at zero, the Gaussian weight of every pair, the product of the
  weight table with the value array, and subtracts the value array. Read at an index, stage by stage, this is the
  filter's formula: each stage's element is one element (or one sum of elements) of the stages before it.
-/
import proofs.«149608_j74371653697731_1_alg».proof.Proof.Gen.ReferenceIdeal.Read
import proofs.«149608_j74371653697731_1_alg».proof.Proof.FilterSpec
import Idealize.ShloMosaic.Lib.ValueIdx
import Idealize.ShloMosaic.Lib.ValueLayout
import Idealize.ShloMosaic.PureOps.Ideal.Laws

noncomputable section

open scoped BigOperators

namespace Cert.ReferenceIdeal.RefSide

open Idealize.ShloMosaic Idealize.ShloMosaic.TcCoe Idealize.SL.Sem Idealize.ShloMosaic.ValueIdx
open Cert.ReferenceIdeal Cert.ReferenceIdeal.Read Cert.FilterSpec

/-- The squared length of row r: the host's sum starts from the zero word, which is the number zero. -/
theorem sq_eq (x1 : (⟨S16384x5, .f32⟩ : BufTy).Contents (Elt Ideal)) (r : Fin 16384) :
    val_main_v1 (F := Ideal) x1 (ix1 r) = sq x1 r := by
  have h1 : ∀ k : Fin 5, idx_main_v1 (ix1 r) k = ix2 r k := fun k =>
    funext fun a => Fin.ext (by match a with | ⟨0, _⟩ => rfl | ⟨1, _⟩ => rfl)
  rw [val_main_v1_apply]
  simp only [val_main_cst_apply, val_main_v0_apply, h1, Ideal.ofBits_def, Ideal.mulf_def, Ideal.ofBits_zero_f32, zero_add]
  rfl

/-- The weight table at (r, s) is the Gaussian weight of the pair. -/
theorem weight_eq (x1 : (⟨S16384x5, .f32⟩ : BufTy).Contents (Elt Ideal)) (r s : Fin 16384) :
    val_main_v16 (F := Ideal) x1 (ix2 r s) = wgt x1 r s := by
  have h2 : idx_main_v2 (idx_main_v4 (ix2 r s)) = ix1 r := funext fun a => Fin.ext (by match a with | ⟨0, _⟩ => rfl)
  have h3 : idx_main_v3 (idx_main_v5 (ix2 r s)) = ix1 s := funext fun a => Fin.ext (by match a with | ⟨0, _⟩ => rfl)
  have hl : ∀ k : Fin 5, lidx_main_v8 (ix2 r s) k = ix2 r k := fun k =>
    funext fun a => Fin.ext (by match a with | ⟨0, _⟩ => rfl | ⟨1, _⟩ => rfl)
  have hr : ∀ k : Fin 5, idx_main_v7 (ridx_main_v8 (ix2 r s) k) = ix2 s k := fun k =>
    funext fun a => Fin.ext (by match a with | ⟨0, _⟩ => rfl | ⟨1, _⟩ => rfl)
  rw [val_main_v16_apply, val_main_v15_apply, val_main_v14_apply, val_main_cst_2_apply, val_main_v13_apply, val_main_v12_apply,
    val_main_cst_1_apply, val_main_v11_apply, val_main_v6_apply, val_main_v4_apply, val_main_v2_apply, val_main_v5_apply,
    val_main_v3_apply, val_main_v10_apply, val_main_v9_apply, val_main_cst_0_apply, val_main_v8_apply, h2, h3, sq_eq, sq_eq]
  simp only [val_main_v7_apply, hl, hr, Ideal.hostUnary_exp_def, Ideal.mulf_def, Ideal.maximumf_def, Ideal.subf_def, Ideal.addf_def,
    Ideal.ofBits_def]
  rfl

/-- THE REFERENCE IS THE FILTER: its last stage, as a function of the two arguments, is `G`. -/
theorem ref_eq (x0 : (⟨S16384x64, .f32⟩ : BufTy).Contents (Elt Ideal)) (x1 : (⟨S16384x5, .f32⟩ : BufTy).Contents (Elt Ideal)) :
    val_main_v18 (F := Ideal) x0 x1 = G x0 x1 := by
  funext i
  obtain ⟨r, q, rfl⟩ : ∃ (r : Fin 16384) (q : Fin 64), i = ix2 r q := ⟨i 0, i 1, eq_ix2 i⟩
  have hl : ∀ s : Fin 16384, lidx_main_v17 (ix2 r q) s = ix2 r s := fun s =>
    funext fun a => Fin.ext (by match a with | ⟨0, _⟩ => rfl | ⟨1, _⟩ => rfl)
  have hr : ∀ s : Fin 16384, ridx_main_v17 (ix2 r q) s = ix2 s q := fun s =>
    funext fun a => Fin.ext (by match a with | ⟨0, _⟩ => rfl | ⟨1, _⟩ => rfl)
  rw [G_apply, val_main_v18_apply, val_main_v17_apply]
  simp only [hl, hr, weight_eq, Ideal.subf_def]
  rfl

end Cert.ReferenceIdeal.RefSide

end
-- ==== Proof.lean ====
/-
  The Gaussian filter kernel against its reference. Both compute, for feature rows R and value rows U,
      out(r, q) = (sum over all rows s of exp(-1/2 * max((|R r|^2 + |R s|^2) - 2 <R r, R s>, 0)) * U(s, q)) - U(r, q).
  The kernel walks a 16 x 16 grid of 1024-row blocks, keeping for each row block i a running total over the column
  blocks j = 0 .. 15 in an accumulator and writing the block out at j = 15; the reference forms the whole 16384 x 16384
  weight table and one matrix product. On the extended reals the two are the same sum, regrouped by blocks.
  The three frames: the kernel (at the word level and idealized) runs to the end and leaves its two argument arrays
  alone — each array is only read, through two windows that share it —, and the reference's run is its generated run.
  The idealization rewrote nothing, so there is nothing to preserve.
-/
import proofs.«149608_j74371653697731_1_alg».proof.Defs
import proofs.«149608_j74371653697731_1_alg».proof.Proof.Gen.Kernel
import proofs.«149608_j74371653697731_1_alg».proof.Proof.Gen.KernelIdeal
import proofs.«149608_j74371653697731_1_alg».proof.Proof.Gen.ReferenceIdeal
import proofs.«149608_j74371653697731_1_alg».proof.Proof.Gen.ReferenceIdeal.Run
import proofs.«149608_j74371653697731_1_alg».proof.Proof.Gen.Pre_finite_inputs
import proofs.«149608_j74371653697731_1_alg».proof.Proof.KernelFrame
import proofs.«149608_j74371653697731_1_alg».proof.Proof.KernelIdealValue
import proofs.«149608_j74371653697731_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the filter's result of the (agreeing) arguments. -/
theorem algebraic : Cert.algebraic_KernelIdeal_ReferenceIdeal := by
  intro m ρ m' ρ' _ hagree
  refine ⟨fun c => Cert.FilterSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _).trans ((Cert.ReferenceIdeal.RefSide.ref_eq _ _).trans ?_)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
